-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S128x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with its result named.

  The program is three launches of the dense-layer kernel with stretches of host operations before each. Its buffer
  contents at the boundaries between these six segments are a fold from the launch memory: a host stretch applies its
  operations, a launch replaces each of its arrays by what its write-backs leave and keeps every other buffer. Every
  weakly fair execution terminates without a fault in a state whose buffers (those that outlive the launches) hold the
  last boundary's contents. Read at the result buffer and at the eleven argument buffers this is the statement below:
  the result holds the last boundary's contents there, and each argument is as launched, since no segment writes it.
-/
import proofs.«170270_j26852135535160_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_named : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Net

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«170270_j26852135535160_1_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.SageSpec.lean ====
/-
  One layer of neighbourhood averaging followed by two dense maps, as a function on the extended reals.

  For node features x : [n, 128], averaged neighbour features a : [n, 128], weight matrices wl, wr : [128, 128] (row e
  of a weight matrix holds the coefficients of output feature e) and a bias b of length 128, the layer's entry (p, e) is

      max( sum_k a(p,k) * wl(e,k)  +  sum_k x(p,k) * wr(e,k)  +  b(e),  0 ).

  The three summands can be added in either grouping: addition of extended reals is commutative and associative, so no
  finiteness of the data is needed (nothing is cancelled and no factor is moved across a sum). Three such layers, each
  fed the previous one's output both directly and through the averaging map, make the network.
-/
import Idealize.ShloMosaic.PureOps.Ideal
import Idealize.ShloMosaic.Lib.ValueIdx

noncomputable section

open scoped BigOperators

namespace Cert.Sage

open Idealize.ShloMosaic Idealize.ShloMosaic.ValueIdx

/-- One output entry from a row of averaged neighbour features, the node's own row, one row of each weight matrix and
    the bias entry: the two inner products are added first, then the bias, then the rectifier. -/
def cell (a x wl wr : Fin 128 → EReal) (b : EReal) : EReal :=
  max ((∑ k, a k * wl k + ∑ k, x k * wr k) + b) (Ideal.ofBits .f32 0x00000000#32)

/-- The same entry with the bias added to the first inner product before the second one. -/
def cell' (a x wl wr : Fin 128 → EReal) (b : EReal) : EReal :=
  max ((∑ k, a k * wl k + b) + ∑ k, x k * wr k) (Ideal.ofBits .f32 0x00000000#32)

/-- The two groupings of the three summands agree: addition is commutative and associative on the extended reals. -/
theorem cell'_eq_cell (a x wl wr : Fin 128 → EReal) (b : EReal) : cell' a x wl wr b = cell a x wl wr b := by
  unfold cell' cell
  rw [add_right_comm]

/-- A matrix of n rows and 128 columns, and a square weight matrix, as functions of an index. -/
abbrev Rows (n : ℕ) : Type := (⟨2, ![n, 128]⟩ : Shape).Idx → EReal
abbrev Weights : Type := (⟨2, ![128, 128]⟩ : Shape).Idx → EReal

/-- One layer over n rows: entry (p, e) from row p of the averaged features, row p of the features, row e of each
    weight matrix and bias entry e. -/
def layer {n : ℕ} (a x : Rows n) (wl : Weights) (b : Fin 128 → EReal) (wr : Weights) : Rows n :=
  fun i => cell (fun k => a (ix2 (i 0 : Fin n) k)) (fun k => x (ix2 (i 0 : Fin n) k))
    (fun k => wl (ix2 (i 1 : Fin 128) k)) (fun k => wr (ix2 (i 1 : Fin 128) k)) (b (i 1 : Fin 128))

theorem layer_apply {n : ℕ} (a x : Rows n) (wl : Weights) (b : Fin 128 → EReal) (wr : Weights) (p : Fin n) (e : Fin 128) :
    layer a x wl b wr (ix2 p e)
      = cell (fun k => a (ix2 p k)) (fun k => x (ix2 p k)) (fun k => wl (ix2 e k)) (fun k => wr (ix2 e k)) (b e) := rfl

/-- Three layers; `avg` is the map from node features to averaged neighbour features (the same map in every layer). -/
def net {n : ℕ} (avg : Rows n → Rows n) (x : Rows n) (wl0 : Weights) (b0 : Fin 128 → EReal) (wr0 : Weights)
    (wl1 : Weights) (b1 : Fin 128 → EReal) (wr1 : Weights) (wl2 : Weights) (b2 : Fin 128 → EReal) (wr2 : Weights) : Rows n :=
  let h0 := layer (avg x) x wl0 b0 wr0
  let h1 := layer (avg h0) h0 wl1 b1 wr1
  layer (avg h1) h1 wl2 b2 wr2

end Cert.Sage

end
-- ==== Proof.KernelPayload.lean ====
/-
  What each launch of the dense-layer kernel stores, on the extended reals.

  The kernel body loads a block of 2000 rows of averaged neighbour features and of node features, the two weight
  matrices and the bias row, rounds the four matrices to a shorter float format (the identity on the extended reals),
  multiplies rows against rows of the weights into zero accumulators, adds the two products, then the bias row laid
  along the rows, and takes the maximum with zero. Entry (p, e) of the stored block is therefore one layer's entry of
  the loaded blocks: the inner product of row p of the first block with row e of the first weight matrix, plus the same
  for the second pair, plus bias entry e, rectified.
-/
import proofs.«170270_j26852135535160_1_alg».proof.Proof.Gen.KernelIdeal.Skeleton
import proofs.«170270_j26852135535160_1_alg».proof.Proof.LibRowOpsFormats
import proofs.«170270_j26852135535160_1_alg».proof.Proof.SageSpec
import Idealize.ShloMosaic.Lib.ValueIdx
import Idealize.ShloMosaic.Lib.ValueLayout
import Idealize.ShloMosaic.Lib.Pipeline.Value

noncomputable section

open scoped BigOperators

namespace Cert.KernelIdeal.Net

open Cert.KernelIdeal Cert.KernelIdeal.Gen
open Idealize.ShloMosaic Idealize.ShloMosaic.ValueIdx

/-- Launch 0's stored value is one layer of its five loaded blocks (the second operand is used as loaded). -/
theorem pay0_eq (a x : Vec Ideal S2000x128 .f32) (wl wr : Vec Ideal S128x128 .f32) (b : Vec Ideal S1x128 .f32) :
    k0_pay1 (F := Ideal) a x wl wr b = Cert.Sage.layer (n := 2000) a x wl (fun e => b (ix2 (0 : Fin 1) e)) wr := by
  funext i
  obtain ⟨p, e, rfl⟩ : ∃ (p : Fin 2000) (e : Fin 128), i = ix2 p e := ⟨i 0, i 1, eq_ix2 i⟩
  rw [Cert.Sage.layer_apply]
  unfold k0_pay1 Cert.Sage.cell
  dsimp only
  refine congrArg₂ max (congrArg₂ (· + ·) (congrArg₂ (· + ·) ?_ ?_) ?_) rfl
  · refine (Cert.RowOps.rows_matmul dot_S2000x128_S128x128_S2000x128_1_1_0_0_n_n_wf _ rfl _ _ p e).trans ?_
    exact Finset.sum_congr rfl fun k _ => congrArg₂ (· * ·) (congrFun (shapeCast_self a _) (ix2 p k)) rfl
  · refine (Cert.RowOps.rows_matmul dot_S2000x128_S128x128_S2000x128_1_1_0_0_n_n_wf _ rfl _ _ p e).trans ?_
    exact Finset.sum_congr rfl fun k _ => rfl
  · exact (broadcastTo_1b_ab_apply _ _ p e).trans (congrFun (shapeCast_self b _) _)

/-- Launch 1's stored value is one layer of its five loaded blocks (the second operand also passes an identity cast). -/
theorem pay1_eq (a x : Vec Ideal S2000x128 .f32) (wl wr : Vec Ideal S128x128 .f32) (b : Vec Ideal S1x128 .f32) :
    k1_pay1 (F := Ideal) a x wl wr b = Cert.Sage.layer (n := 2000) a x wl (fun e => b (ix2 (0 : Fin 1) e)) wr := by
  funext i
  obtain ⟨p, e, rfl⟩ : ∃ (p : Fin 2000) (e : Fin 128), i = ix2 p e := ⟨i 0, i 1, eq_ix2 i⟩
  rw [Cert.Sage.layer_apply]
  unfold k1_pay1 Cert.Sage.cell
  dsimp only
  refine congrArg₂ max (congrArg₂ (· + ·) (congrArg₂ (· + ·) ?_ ?_) ?_) rfl
  · refine (Cert.RowOps.rows_matmul dot_S2000x128_S128x128_S2000x128_1_1_0_0_n_n_wf _ rfl _ _ p e).trans ?_
    exact Finset.sum_congr rfl fun k _ => congrArg₂ (· * ·) (congrFun (shapeCast_self a _) (ix2 p k)) rfl
  · refine (Cert.RowOps.rows_matmul dot_S2000x128_S128x128_S2000x128_1_1_0_0_n_n_wf _ rfl _ _ p e).trans ?_
    exact Finset.sum_congr rfl fun k _ => congrArg₂ (· * ·) (congrFun (shapeCast_self x _) (ix2 p k)) rfl
  · exact (broadcastTo_1b_ab_apply _ _ p e).trans (congrFun (shapeCast_self b _) _)

/-- Launch 2's stored value is one layer of its five loaded blocks (the second operand also passes an identity cast). -/
theorem pay2_eq (a x : Vec Ideal S2000x128 .f32) (wl wr : Vec Ideal S128x128 .f32) (b : Vec Ideal S1x128 .f32) :
    k2_pay1 (F := Ideal) a x wl wr b = Cert.Sage.layer (n := 2000) a x wl (fun e => b (ix2 (0 : Fin 1) e)) wr := by
  funext i
  obtain ⟨p, e, rfl⟩ : ∃ (p : Fin 2000) (e : Fin 128), i = ix2 p e := ⟨i 0, i 1, eq_ix2 i⟩
  rw [Cert.Sage.layer_apply]
  unfold k2_pay1 Cert.Sage.cell
  dsimp only
  refine congrArg₂ max (congrArg₂ (· + ·) (congrArg₂ (· + ·) ?_ ?_) ?_) rfl
  · refine (Cert.RowOps.rows_matmul dot_S2000x128_S128x128_S2000x128_1_1_0_0_n_n_wf _ rfl _ _ p e).trans ?_
    exact Finset.sum_congr rfl fun k _ => congrArg₂ (· * ·) (congrFun (shapeCast_self a _) (ix2 p k)) rfl
  · refine (Cert.RowOps.rows_matmul dot_S2000x128_S128x128_S2000x128_1_1_0_0_n_n_wf _ rfl _ _ p e).trans ?_
    exact Finset.sum_congr rfl fun k _ => congrArg₂ (· * ·) (congrFun (shapeCast_self x _) (ix2 p k)) rfl
  · exact (broadcastTo_1b_ab_apply _ _ p e).trans (congrFun (shapeCast_self b _) _)

end Cert.KernelIdeal.Net

end
-- ==== Proof.Launch0.lean ====
/-
  Launch 0 of the dense-layer kernel, from blocks to the whole array.

  The launch walks 25 grid points. At point t the pipeline hands the body rows 2000 t … 2000 t + 1999 of the averaged
  features and of the node features, the whole of each weight matrix and the bias row, and writes the body's block back
  to the same rows of the result. Row 2000 t + r of one layer of the whole arrays depends only on row 2000 t + r of the
  two feature arrays, so what point t writes back is block t of the layer of the whole arrays; the 25 blocks cover all
  50000 rows (row q lies in block q / 2000), hence the result array ends as the layer of the arrays the launch found.
-/
import proofs.«170270_j26852135535160_1_alg».proof.Proof.Gen.KernelIdeal.Frame
import proofs.«170270_j26852135535160_1_alg».proof.Proof.KernelPayload
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets0 : (![0, 0] : Fin 2 → Nat) = fun _ => 0 := funext fun a => by fin_cases a <;> rfl

/-- The layer of the five arrays as launch 0 finds them. -/
abbrev whole0 (c : Dev nD) : S50000x128.Idx → EReal :=
  Cert.Sage.layer (n := 50000) (V c main_v24) (V c main_arg0) (V c main_arg2) (fun e => V c main_v25 (ix2 (0 : Fin 1) e)) (V c main_arg4)

/-- The block index maps, decided over the 25 grid points: the two feature windows and the result window sit at block
    row t, every other block index is 0. -/
theorem blockRows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem written0 (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5]
  unfold out0_5
  rw [View.canon_unit_zero offsets0]
  simp only [View.ld_unit_zero (S := S2000x128) offsets0, View.ld_unit_zero (S := S128x128) offsets0, View.ld_unit_zero (S := S1x128) offsets0]
  rw [pay0_eq]
  obtain ⟨a0, a1, x0, x1, l0, l1, b0, b1, r0, r1, o0, o1⟩ := blockRows0 t
  have ht : t.val < 25 := t.isLt
  funext j
  obtain ⟨r, e, rfl⟩ : ∃ (r : Fin 2000) (e : Fin 128), j = ix2 r e := ⟨j 0, j 1, eq_ix2 j⟩
  have hr : r.val < 2000 := r.isLt
  -- row r of the feature blocks at point t is row 2000 t + r of the arrays
  have hA : ∀ k : Fin 128, iblk0 V c 0 t (ix2 r k) = V c main_v24 (ix2 (⟨t.val * 2000 + r.val, by omega⟩ : Fin 50000) k) := fun k => by
    show V c main_v24 (((cfg0.win 0).blk t).view.emb (ix2 r k)) = _
    refine congrArg (V c main_v24) (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * k.val = k.val; omega
  have hX : ∀ k : Fin 128, iblk0 V c 1 t (ix2 r k) = V c main_arg0 (ix2 (⟨t.val * 2000 + r.val, by omega⟩ : Fin 50000) k) := fun k => by
    show V c main_arg0 (((cfg0.win 1).blk t).view.emb (ix2 r k)) = _
    refine congrArg (V c main_arg0) (funext fun a => Fin.ext ?_)
    match a with
    | ⟨0, _⟩ => show win0_1.index t (0 : Fin 2) * 2000 + 1 * r.val = t.val * 2000 + r.val; omega
    | ⟨1, _⟩ => show win0_1.index t (1 : Fin 2) * 128 + 1 * k.val = k.val; omega
  -- the weight matrices and the bias row are handed over whole
  have hL : ∀ k : Fin 128, iblk0 V c 2 t (ix2 e k) = V c main_arg2 (ix2 e k) := fun k => by
    show V c main_arg2 (((cfg0.win 2).blk t).view.emb (ix2 e k)) = _
    refine congrArg (V c main_arg2) (funext fun a => Fin.ext ?_)
    match a with
    | ⟨0, _⟩ => show win0_2.index t (0 : Fin 2) * 128 + 1 * e.val = e.val; omega
    | ⟨1, _⟩ => show win0_2.index t (1 : Fin 2) * 128 + 1 * k.val = k.val; omega
  have hR : ∀ k : Fin 128, iblk0 V c 4 t (ix2 e k) = V c main_arg4 (ix2 e k) := fun k => by
    show V c main_arg4 (((cfg0.win 4).blk t).view.emb (ix2 e k)) = _
    refine congrArg (V c main_arg4) (funext fun a => Fin.ext ?_)
    match a with
    | ⟨0, _⟩ => show win0_4.index t (0 : Fin 2) * 128 + 1 * e.val = e.val; omega
    | ⟨1, _⟩ => show win0_4.index t (1 : Fin 2) * 128 + 1 * k.val = k.val; omega
  have hB : iblk0 V c 3 t (ix2 (0 : Fin 1) e) = V c main_v25 (ix2 (0 : Fin 1) e) := by
    show V c main_v25 (((cfg0.win 3).blk t).view.emb (ix2 (0 : Fin 1) e)) = _
    refine congrArg (V c main_v25) (funext fun a => Fin.ext ?_)
    match a with
    | ⟨0, _⟩ => show win0_3.index t (0 : Fin 2) * 1 + 1 * 0 = 0; omega
    | ⟨1, _⟩ => show win0_3.index t (1 : Fin 2) * 128 + 1 * e.val = e.val; omega
  -- entry (r, e) of the result block is entry (2000 t + r, e) of the result array
  have hO : ((cfg0.win 5).blk t).view.emb (ix2 r e) = ix2 (⟨t.val * 2000 + r.val, by omega⟩ : Fin 50000) e := by
    funext a; apply Fin.ext
    match a with
    | ⟨0, _⟩ => show win0_5.index t (0 : Fin 2) * 2000 + 1 * r.val = t.val * 2000 + r.val; omega
    | ⟨1, _⟩ => show win0_5.index t (1 : Fin 2) * 128 + 1 * e.val = e.val; omega
  show Cert.Sage.layer (n := 2000) (iblk0 V c 0 t) (iblk0 V c 1 t) (iblk0 V c 2 t) (fun e => iblk0 V c 3 t (ix2 (0 : Fin 1) e)) (iblk0 V c 4 t) (ix2 r e)
    = whole0 V c (((cfg0.win 5).blk t).view.emb (ix2 r e))
  rw [hO, Cert.Sage.layer_apply]
  unfold whole0
  rw [Cert.Sage.layer_apply]
  unfold Cert.Sage.cell
  exact congrArg₂ max (congrArg₂ (· + ·) (congrArg₂ (· + ·)
    (Finset.sum_congr rfl fun k _ => congrArg₂ (· * ·) (hA k) (hL k))
    (Finset.sum_congr rfl fun k _ => congrArg₂ (· * ·) (hX k) (hR k))) hB) rfl

/-- An index of the result array is in point t's block iff each coordinate is in the block's range on its axis. -/
theorem inBlock0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every index of the result array lies in the block of some point that writes back: row q in block q / 2000. -/
theorem covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, -, -, -, -, -, o0, o1⟩ := blockRows0 t
  have q0 : win0_5.index t (0 : Fin 2) = (i 0).val / 2000 := o0
  refine ⟨t, flush0_5 t, ?_⟩
  rw [inBlock0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after launch 0: one layer of the five arrays the launch found. -/
theorem result0 (c : Dev nD) : (dat0 V c).arrAt 5 cfg0.N = whole0 V c :=
  (dat0 V c).arrAt_eq_of_cover 5 (whole0 V c) (fun t _ => written0 V c t) (covered0)

end Cert.KernelIdeal.Net

end
-- ==== Proof.Launch1.lean ====
/-
  Launch 1 of the dense-layer kernel, from blocks to the whole array.

  The launch walks 25 grid points. At point t the pipeline hands the body rows 2000 t … 2000 t + 1999 of the averaged
  features and of the node features, the whole of each weight matrix and the bias row, and writes the body's block back
  to the same rows of the result. Row 2000 t + r of one layer of the whole arrays depends only on row 2000 t + r of the
  two feature arrays, so what point t writes back is block t of the layer of the whole arrays; the 25 blocks cover all
  50000 rows (row q lies in block q / 2000), hence the result array ends as the layer of the arrays the launch found.
-/
import proofs.«170270_j26852135535160_1_alg».proof.Proof.Gen.KernelIdeal.Frame
import proofs.«170270_j26852135535160_1_alg».proof.Proof.KernelPayload
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets1 : (![0, 0] : Fin 2 → Nat) = fun _ => 0 := funext fun a => by fin_cases a <;> rfl

/-- The layer of the five arrays as launch 1 finds them. -/
abbrev whole1 (c : Dev nD) : S50000x128.Idx → EReal :=
  Cert.Sage.layer (n := 50000) (V c main_v38) (V c main_v26) (V c main_arg5) (fun e => V c main_v39 (ix2 (0 : Fin 1) e)) (V c main_arg7)

/-- The block index maps, decided over the 25 grid points: the two feature windows and the result window sit at block
    row t, every other block index is 0. -/
theorem blockRows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the whole arrays. -/
theorem written1 (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero offsets1]
  simp only [View.ld_unit_zero (S := S2000x128) offsets1, View.ld_unit_zero (S := S128x128) offsets1, View.ld_unit_zero (S := S1x128) offsets1]
  rw [pay1_eq]
  obtain ⟨a0, a1, x0, x1, l0, l1, b0, b1, r0, r1, o0, o1⟩ := blockRows1 t
  have ht : t.val < 25 := t.isLt
  funext j
  obtain ⟨r, e, rfl⟩ : ∃ (r : Fin 2000) (e : Fin 128), j = ix2 r e := ⟨j 0, j 1, eq_ix2 j⟩
  have hr : r.val < 2000 := r.isLt
  -- row r of the feature blocks at point t is row 2000 t + r of the arrays
  have hA : ∀ k : Fin 128, iblk1 V c 0 t (ix2 r k) = V c main_v38 (ix2 (⟨t.val * 2000 + r.val, by omega⟩ : Fin 50000) k) := fun k => by
    show V c main_v38 (((cfg1.win 0).blk t).view.emb (ix2 r k)) = _
    refine congrArg (V c main_v38) (funext fun a => Fin.ext ?_)
    match a with
    | ⟨0, _⟩ => show win1_0.index t (0 : Fin 2) * 2000 + 1 * r.val = t.val * 2000 + r.val; omega
    | ⟨1, _⟩ => show win1_0.index t (1 : Fin 2) * 128 + 1 * k.val = k.val; omega
  have hX : ∀ k : Fin 128, iblk1 V c 1 t (ix2 r k) = V c main_v26 (ix2 (⟨t.val * 2000 + r.val, by omega⟩ : Fin 50000) k) := fun k => by
    show V c main_v26 (((cfg1.win 1).blk t).view.emb (ix2 r k)) = _
    refine congrArg (V c main_v26) (funext fun a => Fin.ext ?_)
    match a with
    | ⟨0, _⟩ => show win1_1.index t (0 : Fin 2) * 2000 + 1 * r.val = t.val * 2000 + r.val; omega
    | ⟨1, _⟩ => show win1_1.index t (1 : Fin 2) * 128 + 1 * k.val = k.val; omega
  -- the weight matrices and the bias row are handed over whole
  have hL : ∀ k : Fin 128, iblk1 V c 2 t (ix2 e k) = V c main_arg5 (ix2 e k) := fun k => by
    show V c main_arg5 (((cfg1.win 2).blk t).view.emb (ix2 e k)) = _
    refine congrArg (V c main_arg5) (funext fun a => Fin.ext ?_)
    match a with
    | ⟨0, _⟩ => show win1_2.index t (0 : Fin 2) * 128 + 1 * e.val = e.val; omega
    | ⟨1, _⟩ => show win1_2.index t (1 : Fin 2) * 128 + 1 * k.val = k.val; omega
  have hR : ∀ k : Fin 128, iblk1 V c 4 t (ix2 e k) = V c main_arg7 (ix2 e k) := fun k => by
    show V c main_arg7 (((cfg1.win 4).blk t).view.emb (ix2 e k)) = _
    refine congrArg (V c main_arg7) (funext fun a => Fin.ext ?_)
    match a with
    | ⟨0, _⟩ => show win1_4.index t (0 : Fin 2) * 128 + 1 * e.val = e.val; omega
    | ⟨1, _⟩ => show win1_4.index t (1 : Fin 2) * 128 + 1 * k.val = k.val; omega
  have hB : iblk1 V c 3 t (ix2 (0 : Fin 1) e) = V c main_v39 (ix2 (0 : Fin 1) e) := by
    show V c main_v39 (((cfg1.win 3).blk t).view.emb (ix2 (0 : Fin 1) e)) = _
    refine congrArg (V c main_v39) (funext fun a => Fin.ext ?_)
    match a with
    | ⟨0, _⟩ => show win1_3.index t (0 : Fin 2) * 1 + 1 * 0 = 0; omega
    | ⟨1, _⟩ => show win1_3.index t (1 : Fin 2) * 128 + 1 * e.val = e.val; omega
  -- entry (r, e) of the result block is entry (2000 t + r, e) of the result array
  have hO : ((cfg1.win 5).blk t).view.emb (ix2 r e) = ix2 (⟨t.val * 2000 + r.val, by omega⟩ : Fin 50000) e := by
    funext a; apply Fin.ext
    match a with
    | ⟨0, _⟩ => show win1_5.index t (0 : Fin 2) * 2000 + 1 * r.val = t.val * 2000 + r.val; omega
    | ⟨1, _⟩ => show win1_5.index t (1 : Fin 2) * 128 + 1 * e.val = e.val; omega
  show Cert.Sage.layer (n := 2000) (iblk1 V c 0 t) (iblk1 V c 1 t) (iblk1 V c 2 t) (fun e => iblk1 V c 3 t (ix2 (0 : Fin 1) e)) (iblk1 V c 4 t) (ix2 r e)
    = whole1 V c (((cfg1.win 5).blk t).view.emb (ix2 r e))
  rw [hO, Cert.Sage.layer_apply]
  unfold whole1
  rw [Cert.Sage.layer_apply]
  unfold Cert.Sage.cell
  exact congrArg₂ max (congrArg₂ (· + ·) (congrArg₂ (· + ·)
    (Finset.sum_congr rfl fun k _ => congrArg₂ (· * ·) (hA k) (hL k))
    (Finset.sum_congr rfl fun k _ => congrArg₂ (· * ·) (hX k) (hR k))) hB) rfl

/-- An index of the result array is in point t's block iff each coordinate is in the block's range on its axis. -/
theorem inBlock1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v40).slice (win1_5.rect t)).set ↔ _
  rw [View.set_slice_whole, Rect.mem_set_unit]
  exact Iff.rfl

/-- Every index of the result array lies in the block of some point that writes back: row q in block q / 2000. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨-, -, -, -, -, -, -, -, -, -, o0, o1⟩ := blockRows1 t
  have q0 : win1_5.index t (0 : Fin 2) = (i 0).val / 2000 := o0
  refine ⟨t, flush1_5 t, ?_⟩
  rw [inBlock1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE RESULT ARRAY after launch 1: one layer of the five arrays the launch found. -/
theorem result1 (c : Dev nD) : (dat1 V c).arrAt 5 cfg1.N = whole1 V c :=
  (dat1 V c).arrAt_eq_of_cover 5 (whole1 V c) (fun t _ => written1 V c t) (covered1)

end Cert.KernelIdeal.Net

end
-- ==== Proof.Launch2.lean ====
/-
  Launch 2 of the dense-layer kernel, from blocks to the whole array.

  The launch walks 25 grid points. At point t the pipeline hands the body rows 2000 t … 2000 t + 1999 of the averaged
  features and of the node features, the whole of each weight matrix and the bias row, and writes the body's block back
  to the same rows of the result. Row 2000 t + r of one layer of the whole arrays depends only on row 2000 t + r of the
  two feature arrays, so what point t writes back is block t of the layer of the whole arrays; the 25 blocks cover all
  50000 rows (row q lies in block q / 2000), hence the result array ends as the layer of the arrays the launch found.
-/
import proofs.«170270_j26852135535160_1_alg».proof.Proof.Gen.KernelIdeal.Frame
import proofs.«170270_j26852135535160_1_alg».proof.Proof.KernelPayload
import Idealize.ShloMosaic.Lib.Pipeline.Value

set_option maxRecDepth 16384

noncomputable section

open scoped BigOperators

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets2 : (![0, 0] : Fin 2 → Nat) = fun _ => 0 := funext fun a => by fin_cases a <;> rfl

/-- The layer of the five arrays as launch 2 finds them. -/
abbrev whole2 (c : Dev nD) : S50000x128.Idx → EReal :=
  Cert.Sage.layer (n := 50000) (V c main_v52) (V c main_v40) (V c main_arg8) (fun e => V c main_v53 (ix2 (0 : Fin 1) e)) (V c main_arg10)

/-- The block index maps, decided over the 25 grid points: the two feature windows and the result window sit at block
    row t, every other block index is 0. -/
theorem blockRows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer of the whole arrays. -/
theorem written2 (c : Dev nD) (t : Fin cfg2.N) :
    (dat2 V c).flushed 5 t = ((cfg2.win 5).blk t).view.read (Elt Ideal) (whole2 V c) := by
  show (cfg2.win 5).cut (grid2.coords t) ((dat2 V c).after 5 t) = _
  rw [after2_5]
  unfold out2_5
  rw [View.canon_unit_zero offsets2]
  simp only [View.ld_unit_zero (S := S2000x128) offsets2, View.ld_unit_zero (S := S128x128) offsets2, View.ld_unit_zero (S := S1x128) offsets2]
  rw [pay2_eq]
  obtain ⟨a0, a1, x0, x1, l0, l1, b0, b1, r0, r1, o0, o1⟩ := blockRows2 t
  have ht : t.val < 25 := t.isLt
  funext j
  obtain ⟨r, e, rfl⟩ : ∃ (r : Fin 2000) (e : Fin 128), j = ix2 r e := ⟨j 0, j 1, eq_ix2 j⟩
  have hr : r.val < 2000 := r.isLt
  -- row r of the feature blocks at point t is row 2000 t + r of the arrays
  have hA : ∀ k : Fin 128, iblk2 V c 0 t (ix2 r k) = V c main_v52 (ix2 (⟨t.val * 2000 + r.val, by omega⟩ : Fin 50000) k) := fun k => by
    show V c main_v52 (((cfg2.win 0).blk t).view.emb (ix2 r k)) = _
    refine congrArg (V c main_v52) (funext fun a => Fin.ext ?_)
    match a with
    | ⟨0, _⟩ => show win2_0.index t (0 : Fin 2) * 2000 + 1 * r.val = t.val * 2000 + r.val; omega
    | ⟨1, _⟩ => show win2_0.index t (1 : Fin 2) * 128 + 1 * k.val = k.val; omega
  have hX : ∀ k : Fin 128, iblk2 V c 1 t (ix2 r k) = V c main_v40 (ix2 (⟨t.val * 2000 + r.val, by omega⟩ : Fin 50000) k) := fun k => by
    show V c main_v40 (((cfg2.win 1).blk t).view.emb (ix2 r k)) = _
    refine congrArg (V c main_v40) (funext fun a => Fin.ext ?_)
    match a with
    | ⟨0, _⟩ => show win2_1.index t (0 : Fin 2) * 2000 + 1 * r.val = t.val * 2000 + r.val; omega
    | ⟨1, _⟩ => show win2_1.index t (1 : Fin 2) * 128 + 1 * k.val = k.val; omega
  -- the weight matrices and the bias row are handed over whole
  have hL : ∀ k : Fin 128, iblk2 V c 2 t (ix2 e k) = V c main_arg8 (ix2 e k) := fun k => by
    show V c main_arg8 (((cfg2.win 2).blk t).view.emb (ix2 e k)) = _
    refine congrArg (V c main_arg8) (funext fun a => Fin.ext ?_)
    match a with
    | ⟨0, _⟩ => show win2_2.index t (0 : Fin 2) * 128 + 1 * e.val = e.val; omega
    | ⟨1, _⟩ => show win2_2.index t (1 : Fin 2) * 128 + 1 * k.val = k.val; omega
  have hR : ∀ k : Fin 128, iblk2 V c 4 t (ix2 e k) = V c main_arg10 (ix2 e k) := fun k => by
    show V c main_arg10 (((cfg2.win 4).blk t).view.emb (ix2 e k)) = _
    refine congrArg (V c main_arg10) (funext fun a => Fin.ext ?_)
    match a with
    | ⟨0, _⟩ => show win2_4.index t (0 : Fin 2) * 128 + 1 * e.val = e.val; omega
    | ⟨1, _⟩ => show win2_4.index t (1 : Fin 2) * 128 + 1 * k.val = k.val; omega
  have hB : iblk2 V c 3 t (ix2 (0 : Fin 1) e) = V c main_v53 (ix2 (0 : Fin 1) e) := by
    show V c main_v53 (((cfg2.win 3).blk t).view.emb (ix2 (0 : Fin 1) e)) = _
    refine congrArg (V c main_v53) (funext fun a => Fin.ext ?_)
    match a with
    | ⟨0, _⟩ => show win2_3.index t (0 : Fin 2) * 1 + 1 * 0 = 0; omega
    | ⟨1, _⟩ => show win2_3.index t (1 : Fin 2) * 128 + 1 * e.val = e.val; omega
  -- entry (r, e) of the result block is entry (2000 t + r, e) of the result array
  have hO : ((cfg2.win 5).blk t).view.emb (ix2 r e) = ix2 (⟨t.val * 2000 + r.val, by omega⟩ : Fin 50000) e := by
    funext a; apply Fin.ext
    match a with
    | ⟨0, _⟩ => show win2_5.index t (0 : Fin 2) * 2000 + 1 * r.val = t.val * 2000 + r.val; omega
    | ⟨1, _⟩ => show win2_5.index t (1 : Fin 2) * 128 + 1 * e.val = e.val; omega
  show Cert.Sage.layer (n := 2000) (iblk2 V c 0 t) (iblk2 V c 1 t) (iblk2 V c 2 t) (fun e => iblk2 V c 3 t (ix2 (0 : Fin 1) e)) (iblk2 V c 4 t) (ix2 r e)
    = whole2 V c (((cfg2.win 5).blk t).view.emb (ix2 r e))
  rw [hO, Cert.Sage.layer_apply]
  unfold whole2
  rw [Cert.Sage.layer_apply]
  unfold Cert.Sage.cell
  exact congrArg₂ max (congrArg₂ (· + ·) (congrArg₂ (· + ·)
    (Finset.sum_congr rfl fun k _ => congrArg₂ (· * ·) (hA k) (hL k))
    (Finset.sum_congr rfl fun k _ => congrArg₂ (· * ·) (hX k) (hR k))) hB) rfl

/-- An index of the result array is in point t's block iff each coordinate is in the block's range on its axis. -/
theorem inBlock2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v54).slice (win2_5.rect t)).set ↔ _
  rw [View.set_slice_whole, Rect.mem_set_unit]
  exact Iff.rfl

/-- Every index of the result array lies in the block of some point that writes back: row q in block q / 2000. -/
theorem covered2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 2000, by show (i 0).val / 2000 < 25; omega⟩
  obtain ⟨-, -, -, -, -, -, -, -, -, -, o0, o1⟩ := blockRows2 t
  have q0 : win2_5.index t (0 : Fin 2) = (i 0).val / 2000 := o0
  refine ⟨t, flush2_5 t, ?_⟩
  rw [inBlock2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE RESULT ARRAY after launch 2: one layer of the five arrays the launch found. -/
theorem result2 (c : Dev nD) : (dat2 V c).arrAt 5 cfg2.N = whole2 V c :=
  (dat2 V c).arrAt_eq_of_cover 5 (whole2 V c) (fun t _ => written2 V c t) (covered2)

end Cert.KernelIdeal.Net

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.HostStretches.lean ====
/-
  The host operations between the launches, read back.

  Before each launch of the dense-layer kernel the program runs a stretch of host operations. The first stretch splits
  the edge list into its source and destination rows, counts each node's incoming edges (a scatter-add of ones), turns
  the counts into the column 1 / max(count, 1), and averages: it gathers the source node's feature row for every edge
  (a negative node id wraps around by the node count), scatter-adds the gathered rows onto the destination nodes and
  multiplies each node's row by its column entry. It also views the bias vector as a one-row matrix. The second and
  third stretches repeat the averaging on the previous launch's result, reusing the first stretch's source ids,
  destination ids and column, and view the next bias vector as a row. Nothing here is read at an index: the gather and
  the scatter-adds stay whole, as the same operations of whatever feature array they are given.
-/
import proofs.«170270_j26852135535160_1_alg».proof.Proof.Gen.KernelIdeal.Launch
import proofs.«170270_j26852135535160_1_alg».proof.Proof.LibAfterStages
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable {F : FTy → Type} [FloatOps F]

/-- The source node id of every edge: row 0 of the edge list. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The destination node id of every edge: row 1 of the edge list. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The column 1 / max(number of incoming edges, 1), from the destination ids. -/
def invDeg (d : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 d)
          (broadcastInDim S800000 ![] bcast_S_S800000 (constant S_ .f32 0x3F800000#32)))
        (broadcastInDim S50000 ![] bcast_S_S50000 (constant S_ .f32 0x3F800000#32))))

/-- Averaging neighbour features: gather the source rows, scatter-add them onto the destinations, scale each node's
    row by its column entry. -/
def avgOf (s d : (⟨S800000, .i32⟩ : BufTy).Contents (Elt F)) (g : (⟨S50000x1, .f32⟩ : BufTy).Contents (Elt F))
    (x : (⟨S50000x128, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1 g)

/-- The averaging map of the whole program, from the edge list. -/
def avg (e : (⟨S2x800000, .i32⟩ : BufTy).Contents (Elt F)) (x : (⟨S50000x128, .f32⟩ : BufTy).Contents (Elt F)) :
    (⟨S50000x128, .f32⟩ : BufTy).Contents (Elt F) :=
  avgOf (srcOf e) (dstOf e) (invDeg (dstOf e)) x

variable (W : Valuation τ sig (Elt F))

/-! ## The first stretch -/

theorem first_src : after hostOps0 W (Proc.devRef .tc main_v1) = srcOf (W (Proc.devRef .tc main_arg1)) := by
  dsimp only [hostOps0]; after_results; rfl
theorem first_dst : after hostOps0 W (Proc.devRef .tc main_v3) = dstOf (W (Proc.devRef .tc main_arg1)) := by
  dsimp only [hostOps0]; after_results; rfl
theorem first_invDeg : after hostOps0 W (Proc.devRef .tc main_v12) = invDeg (dstOf (W (Proc.devRef .tc main_arg1))) := by
  dsimp only [hostOps0]; after_results; rfl
set_option maxHeartbeats 2000000 in
theorem first_avg : after hostOps0 W (Proc.devRef .tc main_v24)
    = avg (W (Proc.devRef .tc main_arg1)) (W (Proc.devRef .tc main_arg0)) := by
  dsimp only [hostOps0]; after_results_simp; rfl
theorem first_bias : after hostOps0 W (Proc.devRef .tc main_v25)
    = shapeCast S1x128 (W (Proc.devRef .tc main_arg3)) shapeCasts_S128_S1x128 := by
  dsimp only [hostOps0]; after_results; rfl

/-- The first stretch writes none of these argument buffers. -/
theorem first_keeps_arg0 : after hostOps0 W (Proc.devRef .tc main_arg0) = W (Proc.devRef .tc main_arg0) := by kept_through [hostOps0]
theorem first_keeps_arg2 : after hostOps0 W (Proc.devRef .tc main_arg2) = W (Proc.devRef .tc main_arg2) := by kept_through [hostOps0]
theorem first_keeps_arg4 : after hostOps0 W (Proc.devRef .tc main_arg4) = W (Proc.devRef .tc main_arg4) := by kept_through [hostOps0]
theorem first_keeps_arg5 : after hostOps0 W (Proc.devRef .tc main_arg5) = W (Proc.devRef .tc main_arg5) := by kept_through [hostOps0]
theorem first_keeps_arg6 : after hostOps0 W (Proc.devRef .tc main_arg6) = W (Proc.devRef .tc main_arg6) := by kept_through [hostOps0]
theorem first_keeps_arg7 : after hostOps0 W (Proc.devRef .tc main_arg7) = W (Proc.devRef .tc main_arg7) := by kept_through [hostOps0]
theorem first_keeps_arg8 : after hostOps0 W (Proc.devRef .tc main_arg8) = W (Proc.devRef .tc main_arg8) := by kept_through [hostOps0]
theorem first_keeps_arg9 : after hostOps0 W (Proc.devRef .tc main_arg9) = W (Proc.devRef .tc main_arg9) := by kept_through [hostOps0]
theorem first_keeps_arg10 : after hostOps0 W (Proc.devRef .tc main_arg10) = W (Proc.devRef .tc main_arg10) := by kept_through [hostOps0]

/-! ## The second stretch -/

set_option maxHeartbeats 2000000 in
theorem second_avg : after hostOps1 W (Proc.devRef .tc main_v38)
    = avgOf (W (Proc.devRef .tc main_v1)) (W (Proc.devRef .tc main_v3)) (W (Proc.devRef .tc main_v12)) (W (Proc.devRef .tc main_v26)) := by
  dsimp only [hostOps1]; after_results_simp; rfl
theorem second_bias : after hostOps1 W (Proc.devRef .tc main_v39)
    = shapeCast S1x128 (W (Proc.devRef .tc main_arg6)) shapeCasts_S128_S1x128 := by
  dsimp only [hostOps1]; after_results; rfl
/-- The second stretch writes none of these. -/
theorem second_keeps_v1 : after hostOps1 W (Proc.devRef .tc main_v1) = W (Proc.devRef .tc main_v1) := by kept_through [hostOps1]
theorem second_keeps_v3 : after hostOps1 W (Proc.devRef .tc main_v3) = W (Proc.devRef .tc main_v3) := by kept_through [hostOps1]
theorem second_keeps_v12 : after hostOps1 W (Proc.devRef .tc main_v12) = W (Proc.devRef .tc main_v12) := by kept_through [hostOps1]
theorem second_keeps_v26 : after hostOps1 W (Proc.devRef .tc main_v26) = W (Proc.devRef .tc main_v26) := by kept_through [hostOps1]
theorem second_keeps_arg5 : after hostOps1 W (Proc.devRef .tc main_arg5) = W (Proc.devRef .tc main_arg5) := by kept_through [hostOps1]
theorem second_keeps_arg7 : after hostOps1 W (Proc.devRef .tc main_arg7) = W (Proc.devRef .tc main_arg7) := by kept_through [hostOps1]
theorem second_keeps_arg8 : after hostOps1 W (Proc.devRef .tc main_arg8) = W (Proc.devRef .tc main_arg8) := by kept_through [hostOps1]
theorem second_keeps_arg9 : after hostOps1 W (Proc.devRef .tc main_arg9) = W (Proc.devRef .tc main_arg9) := by kept_through [hostOps1]
theorem second_keeps_arg10 : after hostOps1 W (Proc.devRef .tc main_arg10) = W (Proc.devRef .tc main_arg10) := by kept_through [hostOps1]

/-! ## The third stretch -/

set_option maxHeartbeats 2000000 in
theorem third_avg : after hostOps2 W (Proc.devRef .tc main_v52)
    = avgOf (W (Proc.devRef .tc main_v1)) (W (Proc.devRef .tc main_v3)) (W (Proc.devRef .tc main_v12)) (W (Proc.devRef .tc main_v40)) := by
  dsimp only [hostOps2]; after_results_simp; rfl
theorem third_bias : after hostOps2 W (Proc.devRef .tc main_v53)
    = shapeCast S1x128 (W (Proc.devRef .tc main_arg9)) shapeCasts_S128_S1x128 := by
  dsimp only [hostOps2]; after_results; rfl
/-- The third stretch writes none of these. -/
theorem third_keeps_v40 : after hostOps2 W (Proc.devRef .tc main_v40) = W (Proc.devRef .tc main_v40) := by kept_through [hostOps2]
theorem third_keeps_arg8 : after hostOps2 W (Proc.devRef .tc main_arg8) = W (Proc.devRef .tc main_arg8) := by kept_through [hostOps2]
theorem third_keeps_arg10 : after hostOps2 W (Proc.devRef .tc main_arg10) = W (Proc.devRef .tc main_arg10) := by kept_through [hostOps2]

end Cert.KernelIdeal.Net

end
-- ==== Proof.KernelValue.lean ====
/-
  The kernel program's result, as three layers of the arguments.

  Launch 0 finds the averaged node features (first stretch), the node features themselves, two weight matrices and the
  first bias as a row; its result array is one layer of them. The second stretch averages that result with the same
  source ids, destination ids and degree column (no segment in between writes those buffers), and launch 1 finds this
  average, launch 0's result, the next two weight matrices and the next bias row; likewise launch 2. So the last
  boundary's contents at the program's result buffer are the three-layer network of the arguments, with the averaging
  map the host operations' own.
-/
import proofs.«170270_j26852135535160_1_alg».proof.Proof.Gen.KernelIdeal.Frame
import proofs.«170270_j26852135535160_1_alg».proof.Proof.Launch0
import proofs.«170270_j26852135535160_1_alg».proof.Proof.Launch1
import proofs.«170270_j26852135535160_1_alg».proof.Proof.Launch2
import proofs.«170270_j26852135535160_1_alg».proof.Proof.HostStretches
import proofs.«170270_j26852135535160_1_alg».proof.Proof.SageSpec
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo

/-- A vector of length 128 viewed as a one-row matrix reads its entry e at (0, e). -/
theorem biasRow (b : S128.Idx → EReal) (h : S128.ShapeCasts S1x128) (e : Fin 128) :
    shapeCast S1x128 b h (ix2 (0 : Fin 1) e) = b (ix1 e) :=
  (shapeCast_addUnit_apply ![128] b h (ix2 (0 : Fin 1) e)).trans
    (congrArg b (funext fun a => by match a with | ⟨0, _⟩ => rfl))

variable (m : (ℓ : Loc nD τ sig) → Buf (Elt Ideal) ℓ) (ρ : Dev nD → PrngReg) (c : Dev nD)

/-- The three layers' outputs, from the argument arrays as launched. -/
def out0 : Cert.Sage.Rows 50000 :=
  Cert.Sage.layer (avg (F := Ideal) (m ((c : Thread nD τ).loc main_arg1)) (m ((c : Thread nD τ).loc main_arg0))) (m ((c : Thread nD τ).loc main_arg0))
    (m ((c : Thread nD τ).loc main_arg2)) (fun e => m ((c : Thread nD τ).loc main_arg3) (ix1 e)) (m ((c : Thread nD τ).loc main_arg4))
def out1 : Cert.Sage.Rows 50000 :=
  Cert.Sage.layer (avg (F := Ideal) (m ((c : Thread nD τ).loc main_arg1)) (out0 m c)) (out0 m c)
    (m ((c : Thread nD τ).loc main_arg5)) (fun e => m ((c : Thread nD τ).loc main_arg6) (ix1 e)) (m ((c : Thread nD τ).loc main_arg7))
def out2 : Cert.Sage.Rows 50000 :=
  Cert.Sage.layer (avg (F := Ideal) (m ((c : Thread nD τ).loc main_arg1)) (out1 m c)) (out1 m c)
    (m ((c : Thread nD τ).loc main_arg8)) (fun e => m ((c : Thread nD τ).loc main_arg9) (ix1 e)) (m ((c : Thread nD τ).loc main_arg10))

/-- The source ids, destination ids and degree column come through launch 0 unchanged. -/
theorem src_after0 : W2 m ρ c (Proc.devRef .tc main_v1) = srcOf (F := Ideal) (m ((c : Thread nD τ).loc main_arg1)) :=
  (W2_of_ne m ρ c main_v1 (by decide)).trans (first_src (W0 m ρ c))
theorem dst_after0 : W2 m ρ c (Proc.devRef .tc main_v3) = dstOf (F := Ideal) (m ((c : Thread nD τ).loc main_arg1)) :=
  (W2_of_ne m ρ c main_v3 (by decide)).trans (first_dst (W0 m ρ c))
theorem invDeg_after0 : W2 m ρ c (Proc.devRef .tc main_v12) = invDeg (F := Ideal) (dstOf (m ((c : Thread nD τ).loc main_arg1))) :=
  (W2_of_ne m ρ c main_v12 (by decide)).trans (first_invDeg (W0 m ρ c))

/-- Launch 0's result array: the first layer. -/
theorem result_after0 : W2 m ρ c (Proc.devRef .tc main_v26) = out0 m c := by
  refine (W2_arr m ρ c 5).trans ((result0 (V1 m ρ) c).trans ?_)
  have hA : V1 m ρ c main_v24 = avg (F := Ideal) (m ((c : Thread nD τ).loc main_arg1)) (m ((c : Thread nD τ).loc main_arg0)) := first_avg (W0 m ρ c)
  have hX : V1 m ρ c main_arg0 = m ((c : Thread nD τ).loc main_arg0) := first_keeps_arg0 (W0 m ρ c)
  have hL : V1 m ρ c main_arg2 = m ((c : Thread nD τ).loc main_arg2) := first_keeps_arg2 (W0 m ρ c)
  have hR : V1 m ρ c main_arg4 = m ((c : Thread nD τ).loc main_arg4) := first_keeps_arg4 (W0 m ρ c)
  have hB : V1 m ρ c main_v25 = shapeCast S1x128 (m ((c : Thread nD τ).loc main_arg3)) shapeCasts_S128_S1x128 := first_bias (W0 m ρ c)
  unfold whole0 out0
  rw [hA, hX, hL, hR, hB]
  exact congrArg (fun b => Cert.Sage.layer _ _ _ b _) (funext fun e => biasRow _ _ e)

/-- … and through the second stretch and launch 1. -/
theorem src_after1 : W4 m ρ c (Proc.devRef .tc main_v1) = srcOf (F := Ideal) (m ((c : Thread nD τ).loc main_arg1)) :=
  (W4_of_ne m ρ c main_v1 (by decide)).trans ((second_keeps_v1 (W2 m ρ c)).trans (src_after0 m ρ c))
theorem dst_after1 : W4 m ρ c (Proc.devRef .tc main_v3) = dstOf (F := Ideal) (m ((c : Thread nD τ).loc main_arg1)) :=
  (W4_of_ne m ρ c main_v3 (by decide)).trans ((second_keeps_v3 (W2 m ρ c)).trans (dst_after0 m ρ c))
theorem invDeg_after1 : W4 m ρ c (Proc.devRef .tc main_v12) = invDeg (F := Ideal) (dstOf (m ((c : Thread nD τ).loc main_arg1))) :=
  (W4_of_ne m ρ c main_v12 (by decide)).trans ((second_keeps_v12 (W2 m ρ c)).trans (invDeg_after0 m ρ c))

/-- Launch 1's result array: the second layer. -/
theorem result_after1 : W4 m ρ c (Proc.devRef .tc main_v40) = out1 m c := by
  refine (W4_arr m ρ c 5).trans ((result1 (V3 m ρ) c).trans ?_)
  have hA : V3 m ρ c main_v38 = avg (F := Ideal) (m ((c : Thread nD τ).loc main_arg1)) (out0 m c) :=
    (second_avg (W2 m ρ c)).trans (by rw [src_after0, dst_after0, invDeg_after0, result_after0]; rfl)
  have hX : V3 m ρ c main_v26 = out0 m c := (second_keeps_v26 (W2 m ρ c)).trans (result_after0 m ρ c)
  have hL : V3 m ρ c main_arg5 = m ((c : Thread nD τ).loc main_arg5) :=
    (second_keeps_arg5 (W2 m ρ c)).trans ((W2_of_ne m ρ c main_arg5 (by decide)).trans (first_keeps_arg5 (W0 m ρ c)))
  have hR : V3 m ρ c main_arg7 = m ((c : Thread nD τ).loc main_arg7) :=
    (second_keeps_arg7 (W2 m ρ c)).trans ((W2_of_ne m ρ c main_arg7 (by decide)).trans (first_keeps_arg7 (W0 m ρ c)))
  have hB : V3 m ρ c main_v39 = shapeCast S1x128 (m ((c : Thread nD τ).loc main_arg6)) shapeCasts_S128_S1x128 :=
    (second_bias (W2 m ρ c)).trans (congrArg (fun b => shapeCast S1x128 b shapeCasts_S128_S1x128)
      ((W2_of_ne m ρ c main_arg6 (by decide)).trans (first_keeps_arg6 (W0 m ρ c))))
  unfold whole1 out1
  rw [hA, hX, hL, hR, hB]
  exact congrArg (fun b => Cert.Sage.layer _ _ _ b _) (funext fun e => biasRow _ _ e)

/-- Launch 2's result array, the program's result: the third layer. -/
theorem result_after2 : W6 m ρ c (Proc.devRef .tc main_v54) = out2 m c := by
  refine (W6_arr m ρ c 5).trans ((result2 (V5 m ρ) c).trans ?_)
  have hA : V5 m ρ c main_v52 = avg (F := Ideal) (m ((c : Thread nD τ).loc main_arg1)) (out1 m c) :=
    (third_avg (W4 m ρ c)).trans (by rw [src_after1, dst_after1, invDeg_after1, result_after1]; rfl)
  have hX : V5 m ρ c main_v40 = out1 m c := (third_keeps_v40 (W4 m ρ c)).trans (result_after1 m ρ c)
  have hL : V5 m ρ c main_arg8 = m ((c : Thread nD τ).loc main_arg8) :=
    (third_keeps_arg8 (W4 m ρ c)).trans ((W4_of_ne m ρ c main_arg8 (by decide)).trans ((second_keeps_arg8 (W2 m ρ c)).trans
      ((W2_of_ne m ρ c main_arg8 (by decide)).trans (first_keeps_arg8 (W0 m ρ c)))))
  have hR : V5 m ρ c main_arg10 = m ((c : Thread nD τ).loc main_arg10) :=
    (third_keeps_arg10 (W4 m ρ c)).trans ((W4_of_ne m ρ c main_arg10 (by decide)).trans ((second_keeps_arg10 (W2 m ρ c)).trans
      ((W2_of_ne m ρ c main_arg10 (by decide)).trans (first_keeps_arg10 (W0 m ρ c)))))
  have hB : V5 m ρ c main_v53 = shapeCast S1x128 (m ((c : Thread nD τ).loc main_arg9)) shapeCasts_S128_S1x128 :=
    (third_bias (W4 m ρ c)).trans (congrArg (fun b => shapeCast S1x128 b shapeCasts_S128_S1x128)
      ((W4_of_ne m ρ c main_arg9 (by decide)).trans ((second_keeps_arg9 (W2 m ρ c)).trans
        ((W2_of_ne m ρ c main_arg9 (by decide)).trans (first_keeps_arg9 (W0 m ρ c))))))
  unfold whole2 out2
  rw [hA, hX, hL, hR, hB]
  exact congrArg (fun b => Cert.Sage.layer _ _ _ b _) (funext fun e => biasRow _ _ e)

/-- The third layer's output is the three-layer network of the arguments. -/
theorem out2_eq_net : out2 m c = Cert.Sage.net (n := 50000) (avg (F := Ideal) (m ((c : Thread nD τ).loc main_arg1))) (m ((c : Thread nD τ).loc main_arg0))
    (m ((c : Thread nD τ).loc main_arg2)) (fun e => m ((c : Thread nD τ).loc main_arg3) (ix1 e)) (m ((c : Thread nD τ).loc main_arg4))
    (m ((c : Thread nD τ).loc main_arg5)) (fun e => m ((c : Thread nD τ).loc main_arg6) (ix1 e)) (m ((c : Thread nD τ).loc main_arg7))
    (m ((c : Thread nD τ).loc main_arg8)) (fun e => m ((c : Thread nD τ).loc main_arg9) (ix1 e)) (m ((c : Thread nD τ).loc main_arg10)) := rfl

end Cert.KernelIdeal.Net

end
-- ==== Proof.RefNet.lean ====
/-
  The reference program's result is the three-layer network of the specification.

  Each layer of the reference is: a matrix product of the averaged neighbour features with the transposed left weight
  matrix, plus the broadcast bias, plus a matrix product of the node features with the transposed right weight matrix,
  then the maximum with a broadcast zero. Read at an entry (p, e) this is

      max( (sum_k a(p,k) * wl(e,k)  +  b(e))  +  sum_k x(p,k) * wr(e,k),  0 ),

  the bias-first grouping of the specification's entry, equal to the specification's by commutativity and associativity
  of addition on the extended reals. The transposition of a weight matrix turns the product's column index into the
  weight matrix's row index: sum_k a(p,k) * wT(k,e) = sum_k a(p,k) * w(e,k). The averaging stage of the second and third
  layers is the first layer's averaging stage applied to the previous layer's output: the same operations on the same
  edge list, so the equality holds by unfolding the stages' names.
-/
import proofs.«170270_j26852135535160_1_alg».proof.Proof.Gen.ReferenceIdeal.Read
import proofs.«170270_j26852135535160_1_alg».proof.Proof.SageSpec

noncomputable section

open scoped BigOperators

namespace Cert.ReferenceIdeal.RefNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The composed index maps of the first layer's stages at the entry (p, e) and the contraction index k, by coordinates: the
    products read row p of their left operand; the transposed weight matrix at (k, e) is the weight matrix at (e, k); the
    twice-broadcast bias at (p, e) is the bias at e. -/
theorem lrow0 (p : Fin 50000) (e k : Fin 128) : lidx_main_v26 (ix2 p e) k = ix2 p k :=
  funext fun a => Fin.ext (by match a with | ⟨0, _⟩ => rfl | ⟨1, _⟩ => rfl)
theorem lwt0 (p : Fin 50000) (e k : Fin 128) : idx_main_v25 (ridx_main_v26 (ix2 p e) k) = ix2 e k :=
  funext fun a => Fin.ext (by match a with | ⟨0, _⟩ => rfl | ⟨1, _⟩ => rfl)
theorem bias0 (p : Fin 50000) (e : Fin 128) : idx_main_v27 (idx_main_v28 (ix2 p e)) = ix1 e :=
  funext fun a => Fin.ext (by match a with | ⟨0, _⟩ => rfl)
theorem rrow0 (p : Fin 50000) (e k : Fin 128) : lidx_main_v31 (ix2 p e) k = ix2 p k :=
  funext fun a => Fin.ext (by match a with | ⟨0, _⟩ => rfl | ⟨1, _⟩ => rfl)
theorem rwt0 (p : Fin 50000) (e k : Fin 128) : idx_main_v30 (ridx_main_v31 (ix2 p e) k) = ix2 e k :=
  funext fun a => Fin.ext (by match a with | ⟨0, _⟩ => rfl | ⟨1, _⟩ => rfl)

/-- The first layer of the reference, as a function: the specification's layer of the averaged features and the layer's input. -/
theorem layer0_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v33 (F := Ideal) x0 x1 x2 x3 x4
      = Cert.Sage.layer (n := 50000) (val_main_v24 (F := Ideal) x0 x1) (x0) x2 (fun e => x3 (ix1 e)) x4 := by
  funext i
  obtain ⟨p, e, rfl⟩ : ∃ (p : Fin 50000) (e : Fin 128), i = ix2 p e := ⟨i 0, i 1, eq_ix2 i⟩
  rw [Cert.Sage.layer_apply, ← Cert.Sage.cell'_eq_cell]
  unfold Cert.Sage.cell'
  rw [val_main_v33_apply, val_main_v32_apply, val_main_v29_apply, val_main_v26_apply, val_main_v28_apply,
    val_main_v27_apply, val_main_v31_apply, val_main_call0_v0_apply, val_main_call0_cst_apply]
  simp only [val_main_v25_apply, val_main_v30_apply, lrow0, lwt0, bias0, rrow0, rwt0, Ideal.addf_def, Ideal.maximumf_def,
    Ideal.ofBits_def]

/-- The composed index maps of the second layer's stages at the entry (p, e) and the contraction index k, by coordinates: the
    products read row p of their left operand; the transposed weight matrix at (k, e) is the weight matrix at (e, k); the
    twice-broadcast bias at (p, e) is the bias at e. -/
theorem lrow1 (p : Fin 50000) (e k : Fin 128) : lidx_main_v47 (ix2 p e) k = ix2 p k :=
  funext fun a => Fin.ext (by match a with | ⟨0, _⟩ => rfl | ⟨1, _⟩ => rfl)
theorem lwt1 (p : Fin 50000) (e k : Fin 128) : idx_main_v46 (ridx_main_v47 (ix2 p e) k) = ix2 e k :=
  funext fun a => Fin.ext (by match a with | ⟨0, _⟩ => rfl | ⟨1, _⟩ => rfl)
theorem bias1 (p : Fin 50000) (e : Fin 128) : idx_main_v48 (idx_main_v49 (ix2 p e)) = ix1 e :=
  funext fun a => Fin.ext (by match a with | ⟨0, _⟩ => rfl)
theorem rrow1 (p : Fin 50000) (e k : Fin 128) : lidx_main_v52 (ix2 p e) k = ix2 p k :=
  funext fun a => Fin.ext (by match a with | ⟨0, _⟩ => rfl | ⟨1, _⟩ => rfl)
theorem rwt1 (p : Fin 50000) (e k : Fin 128) : idx_main_v51 (ridx_main_v52 (ix2 p e) k) = ix2 e k :=
  funext fun a => Fin.ext (by match a with | ⟨0, _⟩ => rfl | ⟨1, _⟩ => rfl)

/-- The second layer of the reference, as a function: the specification's layer of the averaged features and the layer's input. -/
theorem layer1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x3 x4 x5 x6 x7
      = Cert.Sage.layer (n := 50000) (val_main_v45 (F := Ideal) x0 x1 x2 x3 x4) (val_main_v33 (F := Ideal) x0 x1 x2 x3 x4) x5 (fun e => x6 (ix1 e)) x7 := by
  funext i
  obtain ⟨p, e, rfl⟩ : ∃ (p : Fin 50000) (e : Fin 128), i = ix2 p e := ⟨i 0, i 1, eq_ix2 i⟩
  rw [Cert.Sage.layer_apply, ← Cert.Sage.cell'_eq_cell]
  unfold Cert.Sage.cell'
  rw [val_main_v54_apply, val_main_v53_apply, val_main_v50_apply, val_main_v47_apply, val_main_v49_apply,
    val_main_v48_apply, val_main_v52_apply, val_main_call1_v0_apply, val_main_call1_cst_apply]
  simp only [val_main_v46_apply, val_main_v51_apply, lrow1, lwt1, bias1, rrow1, rwt1, Ideal.addf_def, Ideal.maximumf_def,
    Ideal.ofBits_def]

/-- The composed index maps of the third layer's stages at the entry (p, e) and the contraction index k, by coordinates: the
    products read row p of their left operand; the transposed weight matrix at (k, e) is the weight matrix at (e, k); the
    twice-broadcast bias at (p, e) is the bias at e. -/
theorem lrow2 (p : Fin 50000) (e k : Fin 128) : lidx_main_v68 (ix2 p e) k = ix2 p k :=
  funext fun a => Fin.ext (by match a with | ⟨0, _⟩ => rfl | ⟨1, _⟩ => rfl)
theorem lwt2 (p : Fin 50000) (e k : Fin 128) : idx_main_v67 (ridx_main_v68 (ix2 p e) k) = ix2 e k :=
  funext fun a => Fin.ext (by match a with | ⟨0, _⟩ => rfl | ⟨1, _⟩ => rfl)
theorem bias2 (p : Fin 50000) (e : Fin 128) : idx_main_v69 (idx_main_v70 (ix2 p e)) = ix1 e :=
  funext fun a => Fin.ext (by match a with | ⟨0, _⟩ => rfl)
theorem rrow2 (p : Fin 50000) (e k : Fin 128) : lidx_main_v73 (ix2 p e) k = ix2 p k :=
  funext fun a => Fin.ext (by match a with | ⟨0, _⟩ => rfl | ⟨1, _⟩ => rfl)
theorem rwt2 (p : Fin 50000) (e k : Fin 128) : idx_main_v72 (ridx_main_v73 (ix2 p e) k) = ix2 e k :=
  funext fun a => Fin.ext (by match a with | ⟨0, _⟩ => rfl | ⟨1, _⟩ => rfl)

/-- The third layer of the reference, as a function: the specification's layer of the averaged features and the layer's input. -/
theorem layer2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v75 (F := Ideal) x0 x1 x2 x3 x4 x5 x6 x7 x8 x9 x10
      = Cert.Sage.layer (n := 50000) (val_main_v66 (F := Ideal) x0 x1 x2 x3 x4 x5 x6 x7) (val_main_v54 (F := Ideal) x0 x1 x2 x3 x4 x5 x6 x7) x8 (fun e => x9 (ix1 e)) x10 := by
  funext i
  obtain ⟨p, e, rfl⟩ : ∃ (p : Fin 50000) (e : Fin 128), i = ix2 p e := ⟨i 0, i 1, eq_ix2 i⟩
  rw [Cert.Sage.layer_apply, ← Cert.Sage.cell'_eq_cell]
  unfold Cert.Sage.cell'
  rw [val_main_v75_apply, val_main_v74_apply, val_main_v71_apply, val_main_v68_apply, val_main_v70_apply,
    val_main_v69_apply, val_main_v73_apply, val_main_call2_v0_apply, val_main_call2_cst_apply]
  simp only [val_main_v67_apply, val_main_v72_apply, lrow2, lwt2, bias2, rrow2, rwt2, Ideal.addf_def, Ideal.maximumf_def,
    Ideal.ofBits_def]

/-- The averaging stage of the second layer is the first layer's averaging stage applied to the first layer's output: the
    same gather, scatter-add and scaling by the reciprocal degree, over the same edge list. -/
theorem avg1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v45 (F := Ideal) x0 x1 x2 x3 x4 = val_main_v24 (F := Ideal) (val_main_v33 (F := Ideal) x0 x1 x2 x3 x4) x1 := rfl

/-- The averaging stage of the third layer is the same stage applied to the second layer's output. -/
theorem avg2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v66 (F := Ideal) x0 x1 x2 x3 x4 x5 x6 x7 = val_main_v24 (F := Ideal) (val_main_v54 (F := Ideal) x0 x1 x2 x3 x4 x5 x6 x7) x1 := rfl

/-- The reference's result is the three-layer network of the features, with the reference's own averaging stage as the
    averaging map. -/
theorem result_eq (m : (ℓ : Loc nD τ sig) → Buf (Elt Ideal) ℓ) (c : Dev nD) :
    Cert.ReferenceIdeal.Value.res_main_v75 (F := Ideal) m c
      = Cert.Sage.net (n := 50000)
          (fun h => val_main_v24 (F := Ideal) h (m ((c.tc : Thread nD τ).loc main_arg1)))
          (m ((c.tc : Thread nD τ).loc main_arg0)) (m ((c.tc : Thread nD τ).loc main_arg2)) (fun e => (m ((c.tc : Thread nD τ).loc main_arg3)) (ix1 e)) (m ((c.tc : Thread nD τ).loc main_arg4))
          (m ((c.tc : Thread nD τ).loc main_arg5)) (fun e => (m ((c.tc : Thread nD τ).loc main_arg6)) (ix1 e)) (m ((c.tc : Thread nD τ).loc main_arg7))
          (m ((c.tc : Thread nD τ).loc main_arg8)) (fun e => (m ((c.tc : Thread nD τ).loc main_arg9)) (ix1 e)) (m ((c.tc : Thread nD τ).loc main_arg10)) := by
  rw [val_main_v75_eq, layer2_eq, avg2_eq, layer1_eq, avg1_eq, layer0_eq]
  rfl

end Cert.ReferenceIdeal.RefNet

end
-- ==== Proof.lean ====
/-
  The proof of `Cert.Claim`: the kernel program (three launches of a dense-layer kernel, each fed by host operations
  that average neighbour features) and the reference program compute the same three-layer network on the extended reals.

  One layer's entry (p, e) is max(sum_k a(p,k) * wl(e,k) + sum_k x(p,k) * wr(e,k) + b(e), 0), where a is the average of
  the neighbours' rows of x. The kernel adds the two inner products first and the bias last; the reference adds the bias
  to the first inner product and then the second inner product. The two groupings agree because addition of extended
  reals is commutative and associative, so the precondition (finite inputs) is never used. The averaging map — gather
  the source rows, scatter-add onto the destinations, scale by 1 / max(in-degree, 1) — is the same host operations in both
  programs and is never opened.

  Proof/SageSpec.lean states the layer and the network; Proof/KernelPayload.lean reads what one launch stores; Proof/Launch0,
  1, 2.lean go from the 25 blocks of a launch to its whole result array; Proof/HostStretches.lean reads the host
  operations between launches; Proof/KernelValue.lean composes them into the program's result; Proof/KernelRun.lean is the
  program's run with its result buffer named; Proof/RefNet.lean reads the reference's result as the same network.
-/
import proofs.«170270_j26852135535160_1_alg».proof.Defs
import proofs.«170270_j26852135535160_1_alg».proof.Proof.Gen.Kernel
import proofs.«170270_j26852135535160_1_alg».proof.Proof.Gen.Kernel.Frame
import proofs.«170270_j26852135535160_1_alg».proof.Proof.Gen.KernelIdeal
import proofs.«170270_j26852135535160_1_alg».proof.Proof.Gen.KernelIdeal.Frame
import proofs.«170270_j26852135535160_1_alg».proof.Proof.Gen.ReferenceIdeal
import proofs.«170270_j26852135535160_1_alg».proof.Proof.Gen.ReferenceIdeal.Run
import proofs.«170270_j26852135535160_1_alg».proof.Proof.Gen.ReferenceIdeal.Read
import proofs.«170270_j26852135535160_1_alg».proof.Proof.Gen.Pre_finite_inputs
import proofs.«170270_j26852135535160_1_alg».proof.Proof.KernelRun
import proofs.«170270_j26852135535160_1_alg».proof.Proof.KernelValue
import proofs.«170270_j26852135535160_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The reference's averaging stage and the kernel program's averaging map are the same host operations of the edge
    list and the feature array. -/
theorem avg_agree (e : (⟨Cert.KernelIdeal.S2x800000, .i32⟩ : BufTy).Contents (Elt Ideal))
    (h : (⟨Cert.KernelIdeal.S50000x128, .f32⟩ : BufTy).Contents (Elt Ideal)) :
    Cert.ReferenceIdeal.Read.val_main_v24 (F := Ideal) h e = Cert.KernelIdeal.Net.avg (F := Ideal) e h := rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the three-layer network of the arguments in their result buffer. -/
theorem algebraic : Cert.algebraic_KernelIdeal_ReferenceIdeal := by
  intro m ρ m' ρ' _ hagree
  refine ⟨fun c => Cert.KernelIdeal.Net.out2 m c, ?_, ?_⟩
  · exact (θ_run Cert.KernelIdeal.defs _ _).mono
      (fun r h c => ⟨(h c).1.trans (Cert.KernelIdeal.Net.result_after2 m ρ c), (h c).2⟩)
      (Cert.KernelIdeal.Net.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    show Cert.ReferenceIdeal.Value.res_main_v75 (F := Ideal) m' c = Cert.KernelIdeal.Net.out2 m c
    rw [Cert.ReferenceIdeal.RefNet.result_eq, Cert.KernelIdeal.Net.out2_eq_net, a0, a1, a2, a3, a4, a5, a6, a7, a8, a9, a10]
    exact congrArg (fun f => Cert.Sage.net (n := 50000) f _ _ _ _ _ _ _ _ _ _) (funext fun h => avg_agree _ h)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
